-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩
abbrev S128x128 : Shape := ⟨2, ![128, 128]⟩
abbrev S200 : Shape := ⟨1, ![200]⟩
abbrev S200x1 : Shape := ⟨2, ![200, 1]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x256, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) (c0_i32 : BitVec 32) : Fin 2 → Nat :=
  let c2_i32 : BitVec 32 := 2#32
  let arg0 : BitVec 32 := BitVec.ofNat 32 (i 0).val
  let v3 : BitVec 32 := Scalar.muli c2_i32 arg0
  let v4 : BitVec 32 := Scalar.addi v3 c0_i32
  let c200_i32 : BitVec 32 := 200#32
  let v5 : BitVec 32 := Scalar.muli v4 c200_i32
  let v6 : Index := Scalar.indexCast v5
  let c0_3 : Index := 0#32
  ![v6.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  h_S200x128 : 0 < S200x128.numel
  inb_S128x256_S128x128_0_0 : ∀ a, (![0, 0] : Fin 2 → Nat) a + S128x128.size a ≤ S128x256.size a
  h_S128x128 : 0 < S128x128.numel
  inb_S128x256_S128x128_0_128 : ∀ a, (![0, 128] : Fin 2 → Nat) a + S128x128.size a ≤ S128x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  reduces_S200x128_S200 : S200x128.Reduces [1] S200
  shapeCasts_S200_S200x1 : S200.ShapeCasts S200x1
  broadcasts_S200x1_S200x128 : S200x1.Broadcasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  k0_off1_inb : ∀ i : grid0.Coords, ∀ (r : Fin 2), ∀ a, (k0_off1 i (BitVec.ofNat 32 r.val)) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S10000x128, .f32⟩
  | .hbm, ⟨5, _⟩ => ⟨S10000x256, .f32⟩
  | .hbm, ⟨6, _⟩ => ⟨S256x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.LibSharedFrame.lean ====
import Idealize.ShloMosaic.Lib.Pipeline.Frame

/-!
# The frame run of a one-region pipeline whose input windows may share an array

A kernel may be handed ONE array through several input windows (two streams of row blocks of one matrix).
The buffers behind the windows' arrays are then fewer than the windows, and each window holds its array at a
share of its own. This file states the frame run for that case: given how the distinct buffers, each whole at
the full share, split into the windows' arrays at their shares, every weakly fair execution terminates, each
window's array ends at what the write-backs made of it, and every unscoped buffer that is no window's array
ends as the region found it. The body's invariant is the core's scoped buffers that are no staging buffer.
-/

noncomputable section

namespace Idealize.ShloMosaic.Pipeline

open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

set_option backward.isDefEq.respectTransparency.types false in
/-- The frame run when windows may share arrays: `hsplit` says how the distinct buffers behind the arrays,
    whole at the full share at the region-entry contents `V`, make the windows' arrays at their shares; the
    invariant is the scoped rest at every point. Concludes `FramePost`: each window's array at `arrAt w N`,
    every other unscoped buffer at `V`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) ⟨m, fun _ => 0, g⟩ (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr
      · iempintro
      · iexact H)
    (hin := fun c => by
      rw [hΦ]; iintro ⟨-, H⟩; iexact H)
    (hout := fun c => by
      rw [hΦ]; iintro H; isplitr
      · iempintro
      · iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.BodyBits.lean ====
import proofs.«109985_g49082886258797_cont_8to1_c_363_15_alg».proof.Proof.Gen.Kernel.Launch
import proofs.«109985_g49082886258797_cont_8to1_c_363_15_alg».proof.Proof.Gen.Kernel.Skeleton
import proofs.«109985_g49082886258797_cont_8to1_c_363_15_alg».proof.Proof.Gen.Kernel.Points
import proofs.«109985_g49082886258797_cont_8to1_c_363_15_alg».proof.Proof.LibSharedFrame
import Idealize.ShloMosaic.Lib.Pipeline.FrameBody
import Idealize.ShloMosaic.Lib.Ring
import Idealize.ShloMosaic.Lib.Tactic

/-!
# The body of the row-block kernel, at any float instance

One grid point handles 400 rows of the adjacency matrix, handed to the body as two 200-row blocks through two
windows on the ONE adjacency array, beside the whole feature matrix, the whole weight matrix and the bias row.
For each half the body multiplies the adjacency block by the features, takes the half's own 200 feature rows at
the row offset `400·i + 200·s`, applies the two halves of the weight matrix, adds the bias, divides each row by
its Euclidean norm floored at a small constant, and stores the 200 rows into its half of the output block.
This file states what the output block holds after the body as the two stored pieces over the loaded values,
and proves the body's triple.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole 200-row adjacency block. -/
abbrev rAdj : Rect S200x10000 := Rect.unit (s := S200x10000) ![0, 0] S200x10000.size inb_S200x10000_S200x10000_0_0
/-- The whole feature matrix. -/
abbrev rFeat : Rect S10000x128 := Rect.unit (s := S10000x128) ![0, 0] S10000x128.size inb_S10000x128_S10000x128_0_0
/-- The first half's own feature rows, at the row offset of point `i`. -/
abbrev rSelf0 (i : grid0.Coords) : Rect S10000x128 := Rect.unit (s := S10000x128) (k0_off1 i 0#32) S200x128.size (k0_off1_inb i 0)
/-- The second half's own feature rows. -/
abbrev rSelf1 (i : grid0.Coords) : Rect S10000x128 := Rect.unit (s := S10000x128) (k0_off1 i 1#32) S200x128.size (k0_off1_inb i 1)
/-- The weight matrix's columns 0‥127 and 128‥255. -/
abbrev rWa : Rect S128x256 := Rect.unit (s := S128x256) ![0, 0] S128x128.size inb_S128x256_S128x128_0_0
abbrev rWb : Rect S128x256 := Rect.unit (s := S128x256) ![0, 128] S128x128.size inb_S128x256_S128x128_0_128
/-- The bias row. -/
abbrev rBias : Rect S1x128 := Rect.unit (s := S1x128) ![0, 0] S1x128.size inb_S1x128_S1x128_0_0
/-- The output block's rows 0‥199 and 200‥399. -/
abbrev rOut0 : Rect S400x128 := Rect.unit (s := S400x128) ![0, 0] S200x128.size inb_S400x128_S200x128_0_0
abbrev rOut1 : Rect S400x128 := Rect.unit (s := S400x128) ![200, 0] S200x128.size inb_S400x128_S200x128_200_0

/-! ## What the body leaves in the output block -/

/-- The output block after the body at grid coordinates `i`, from the five input blocks: its two stores as pieces,
    the later store first. -/
def outBlock (i : grid0.Coords) (x0 x1 : Vec F S200x10000 .f32) (x2 : Vec F S10000x128 .f32) (x3 : Vec F S128x256 .f32)
    (x4 : Vec F S1x128 .f32) : Vec F S400x128 .f32 :=
  View.canon [⟨rOut1, k0_pay1 (k0_pay3 (View.ld x1 rAdj) (View.ld x2 rFeat)) (View.ld x2 (rSelf1 i)) (View.ld x3 rWa) (View.ld x3 rWb) (View.ld x4 rBias)⟩,
    ⟨rOut0, k0_pay2 (View.ld x0 rAdj) (View.ld x2 rFeat) (View.ld x2 (rSelf0 i)) (View.ld x3 rWa) (View.ld x3 rWb) (View.ld x4 rBias)⟩]

/-- The two stores tile the 400 rows. -/
theorem cover_out (p0 p1 : Vec F S200x128 .f32) (y : S400x128.Idx) :
    ∃ pc ∈ ([⟨rOut1, p0⟩, ⟨rOut0, p1⟩] : List (View.Piece (Elt F) S400x128 .f32)), y ∈ pc.1.set :=
  View.cover_of_tiled [⟨rOut1, p0⟩, ⟨rOut0, p1⟩] S200x128.size (by rfl) y

/-! ## The body's triple -/

set_option maxHeartbeats 2000000 in
/-- The body on whole staging memrefs, the five inputs' at read contents `x0 … x4` and the output's at anything, runs
    to the continuation holding the inputs' as they were and the output's at `outBlock` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x256 .f32) (harg4 : arg4.IsWhole)
    (arg5 : Memref sig .tc .vmem S1x128 .f32) (harg5 : arg5.IsWhole) (arg6 : Memref sig .tc .vmem S400x128 .f32) (harg6 : arg6.IsWhole)
    (x0 x1 : Vec F S200x10000 .f32) (x2 : Vec F S10000x128 .f32) (x3 : Vec F S128x256 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock i x0 x1 x2 x3 x4)) -∗ K ⟨⟩))
      ⊢ wp frame (wpE (defs₀ (F := F)) Variants.none c none) E
          (cc0__sage_block_kernel i arg1 harg1 arg2 harg2 arg3 harg3 arg4 harg4 arg5 harg5 arg6 harg6) K := by
  simp only [cc0__sage_block_kernel_eq_skeleton]; unfold cc0__sage_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _ _)

end Cert.Kernel.Hand

end
-- ==== Proof.FrameBits.lean ====
import proofs.«109985_g49082886258797_cont_8to1_c_363_15_alg».proof.Proof.BodyBits

/-!
# The frame run of the row-block kernel, at any float instance

The region is entered after one host line (the bias vector re-read as a row). Each of the five input windows holds
its block at every point; the output window's block after the body is the two stored pieces. The adjacency array
is handed to the kernel through two windows, so its buffer, whole at the full share, is split in two halves, one
per window. The run: every weakly fair execution terminates, every window's array ends at what its write-backs
made of it, and the four argument arrays end as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host line before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes none of the four arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's buffer at
    its block and the output's at the two stored pieces over the input blocks; the invariant the scoped buffers that
    are no staging buffer; nothing owed; the adjacency array held in two halves by its two windows, every other input
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (grid0.coords t) (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The adjacency buffer split between its two windows -/

/-- The five distinct buffers behind the six windows' arrays, each whole at the full share, are the windows' arrays
    at their shares: the adjacency buffer's full share is its left half and its right half. -/
theorem hsplit (c : Dev nD) :
    (Pipeline.arrBufs spec0 c (V m c) : sProp 𝕄) ⊢ (dats m 0 c).arrays ((dats m 0 c).arrAt · 0) := by
  unfold Pipeline.arrBufs Dat.arrays
  have e1 : (bigSep (Finset.univ.image (Pipeline.arrRef spec0)) fun b => (((c : Thread nD τ).loc b) ↦{fullShare} V m c b : sProp 𝕄))
      = iprop((((c : Thread nD τ).loc main_arg1) ↦{fullShare} V m c main_arg1) ∗ (((c : Thread nD τ).loc main_arg0) ↦{fullShare} V m c main_arg0)
          ∗ (((c : Thread nD τ).loc main_arg2) ↦{fullShare} V m c main_arg2) ∗ (((c : Thread nD τ).loc main_v0) ↦{fullShare} V m c main_v0)
          ∗ (((c : Thread nD τ).loc main_v1) ↦{fullShare} V m c main_v1)) :=
    bigSep_eq_bigSepL_of_eq [main_arg1, main_arg0, main_arg2, main_v0, main_v1] (by decide) (by decide) _
  rw [e1, bigSep_W0]
  iintro ⟨H1, H0, H2, H3, H4⟩
  ihave H1' := (pointsTo_share (PosShare.mem_left_op_right fullShare)).1 $$ H1
  icases H1' with ⟨Ha, Hb⟩
  have s0 : (dats m 0 c).share 0 = fullShare.left := rfl
  have s1 : (dats m 0 c).share 1 = fullShare.right := rfl
  have s2 : (dats m 0 c).share 2 = fullShare := rfl
  have s3 : (dats m 0 c).share 3 = fullShare := rfl
  have s4 : (dats m 0 c).share 4 = fullShare := rfl
  have s5 : (dats m 0 c).share 5 = fullShare := rfl
  rw [(arr_whole0 0).set_eq_univ, (arr_whole0 2).set_eq_univ, (arr_whole0 3).set_eq_univ,
    (arr_whole0 4).set_eq_univ, (arr_whole0 5).set_eq_univ, s0, s1, s2, s3, s4, s5]
  isplitl [Ha]; · iexact Ha
  isplitl [Hb]; · iexact Hb
  isplitl [H0]; · iexact H0
  isplitl [H2]; · iexact H2
  isplitl [H3]; · iexact H3
  iexact H4

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every window's array ends at
    what the write-backs made of it, and every other unscoped buffer as the region found it. -/
theorem run_main : θ_run defs (onTc (τ := τ) (main (F := F))) ⟨m, fun _ => 0, ρ⟩ (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: the four argument arrays end as launched — the features, the adjacency matrix and the weights as
    inputs of the pipeline, the bias as a buffer the region never touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.Kernel.Hand

end
-- ==== Proof.BodyIdeal.lean ====
import proofs.«109985_g49082886258797_cont_8to1_c_363_15_alg».proof.Proof.Gen.KernelIdeal.Launch
import proofs.«109985_g49082886258797_cont_8to1_c_363_15_alg».proof.Proof.Gen.KernelIdeal.Skeleton
import proofs.«109985_g49082886258797_cont_8to1_c_363_15_alg».proof.Proof.Gen.KernelIdeal.Points
import proofs.«109985_g49082886258797_cont_8to1_c_363_15_alg».proof.Proof.LibSharedFrame
import Idealize.ShloMosaic.Lib.Pipeline.FrameBody
import Idealize.ShloMosaic.Lib.Ring
import Idealize.ShloMosaic.Lib.Tactic

/-!
# The body of the row-block kernel, at any float instance

One grid point handles 400 rows of the adjacency matrix, handed to the body as two 200-row blocks through two
windows on the ONE adjacency array, beside the whole feature matrix, the whole weight matrix and the bias row.
For each half the body multiplies the adjacency block by the features, takes the half's own 200 feature rows at
the row offset `400·i + 200·s`, applies the two halves of the weight matrix, adds the bias, divides each row by
its Euclidean norm floored at a small constant, and stores the 200 rows into its half of the output block.
This file states what the output block holds after the body as the two stored pieces over the loaded values,
and proves the body's triple.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole 200-row adjacency block. -/
abbrev rAdj : Rect S200x10000 := Rect.unit (s := S200x10000) ![0, 0] S200x10000.size inb_S200x10000_S200x10000_0_0
/-- The whole feature matrix. -/
abbrev rFeat : Rect S10000x128 := Rect.unit (s := S10000x128) ![0, 0] S10000x128.size inb_S10000x128_S10000x128_0_0
/-- The first half's own feature rows, at the row offset of point `i`. -/
abbrev rSelf0 (i : grid0.Coords) : Rect S10000x128 := Rect.unit (s := S10000x128) (k0_off1 i 0#32) S200x128.size (k0_off1_inb i 0)
/-- The second half's own feature rows. -/
abbrev rSelf1 (i : grid0.Coords) : Rect S10000x128 := Rect.unit (s := S10000x128) (k0_off1 i 1#32) S200x128.size (k0_off1_inb i 1)
/-- The weight matrix's columns 0‥127 and 128‥255. -/
abbrev rWa : Rect S128x256 := Rect.unit (s := S128x256) ![0, 0] S128x128.size inb_S128x256_S128x128_0_0
abbrev rWb : Rect S128x256 := Rect.unit (s := S128x256) ![0, 128] S128x128.size inb_S128x256_S128x128_0_128
/-- The bias row. -/
abbrev rBias : Rect S1x128 := Rect.unit (s := S1x128) ![0, 0] S1x128.size inb_S1x128_S1x128_0_0
/-- The output block's rows 0‥199 and 200‥399. -/
abbrev rOut0 : Rect S400x128 := Rect.unit (s := S400x128) ![0, 0] S200x128.size inb_S400x128_S200x128_0_0
abbrev rOut1 : Rect S400x128 := Rect.unit (s := S400x128) ![200, 0] S200x128.size inb_S400x128_S200x128_200_0

/-! ## What the body leaves in the output block -/

/-- The output block after the body at grid coordinates `i`, from the five input blocks: its two stores as pieces,
    the later store first. -/
def outBlock (i : grid0.Coords) (x0 x1 : Vec F S200x10000 .f32) (x2 : Vec F S10000x128 .f32) (x3 : Vec F S128x256 .f32)
    (x4 : Vec F S1x128 .f32) : Vec F S400x128 .f32 :=
  View.canon [⟨rOut1, k0_pay1 (k0_pay3 (View.ld x1 rAdj) (View.ld x2 rFeat)) (View.ld x2 (rSelf1 i)) (View.ld x3 rWa) (View.ld x3 rWb) (View.ld x4 rBias)⟩,
    ⟨rOut0, k0_pay2 (View.ld x0 rAdj) (View.ld x2 rFeat) (View.ld x2 (rSelf0 i)) (View.ld x3 rWa) (View.ld x3 rWb) (View.ld x4 rBias)⟩]

/-- The two stores tile the 400 rows. -/
theorem cover_out (p0 p1 : Vec F S200x128 .f32) (y : S400x128.Idx) :
    ∃ pc ∈ ([⟨rOut1, p0⟩, ⟨rOut0, p1⟩] : List (View.Piece (Elt F) S400x128 .f32)), y ∈ pc.1.set :=
  View.cover_of_tiled [⟨rOut1, p0⟩, ⟨rOut0, p1⟩] S200x128.size (by rfl) y

/-! ## The body's triple -/

set_option maxHeartbeats 2000000 in
/-- The body on whole staging memrefs, the five inputs' at read contents `x0 … x4` and the output's at anything, runs
    to the continuation holding the inputs' as they were and the output's at `outBlock` of them. -/
theorem sound_kernel (c : Dev nD) (E : Set ℕ) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x256 .f32) (harg4 : arg4.IsWhole)
    (arg5 : Memref sig .tc .vmem S1x128 .f32) (harg5 : arg5.IsWhole) (arg6 : Memref sig .tc .vmem S400x128 .f32) (harg6 : arg6.IsWhole)
    (x0 x1 : Vec F S200x10000 .f32) (x2 : Vec F S10000x128 .f32) (x3 : Vec F S128x256 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock i x0 x1 x2 x3 x4)) -∗ K ⟨⟩))
      ⊢ wp frame (wpE (defs₀ (F := F)) Variants.none c none) E
          (cc0__sage_block_kernel i arg1 harg1 arg2 harg2 arg3 harg3 arg4 harg4 arg5 harg5 arg6 harg6) K := by
  simp only [cc0__sage_block_kernel_eq_skeleton]; unfold cc0__sage_block_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover_out _ _)

end Cert.KernelIdeal.Hand

end
-- ==== Proof.FrameIdeal.lean ====
import proofs.«109985_g49082886258797_cont_8to1_c_363_15_alg».proof.Proof.BodyIdeal

/-!
# The frame run of the row-block kernel, at any float instance

The region is entered after one host line (the bias vector re-read as a row). Each of the five input windows holds
its block at every point; the output window's block after the body is the two stored pieces. The adjacency array
is handed to the kernel through two windows, so its buffer, whole at the full share, is split in two halves, one
per window. The run: every weakly fair execution terminates, every window's array ends at what its write-backs
made of it, and the four argument arrays end as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host line before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host line, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host line writes none of the four arguments: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's buffer at
    its block and the output's at the two stored pieces over the input blocks; the invariant the scoped buffers that
    are no staging buffer; nothing owed; the adjacency array held in two halves by its two windows, every other input
    array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (grid0.coords t) (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outBlock (grid0.coords t) (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-! ## The adjacency buffer split between its two windows -/

/-- The five distinct buffers behind the six windows' arrays, each whole at the full share, are the windows' arrays
    at their shares: the adjacency buffer's full share is its left half and its right half. -/
theorem hsplit (c : Dev nD) :
    (Pipeline.arrBufs spec0 c (V m c) : sProp 𝕄) ⊢ (dats m 0 c).arrays ((dats m 0 c).arrAt · 0) := by
  unfold Pipeline.arrBufs Dat.arrays
  have e1 : (bigSep (Finset.univ.image (Pipeline.arrRef spec0)) fun b => (((c : Thread nD τ).loc b) ↦{fullShare} V m c b : sProp 𝕄))
      = iprop((((c : Thread nD τ).loc main_arg1) ↦{fullShare} V m c main_arg1) ∗ (((c : Thread nD τ).loc main_arg0) ↦{fullShare} V m c main_arg0)
          ∗ (((c : Thread nD τ).loc main_arg2) ↦{fullShare} V m c main_arg2) ∗ (((c : Thread nD τ).loc main_v0) ↦{fullShare} V m c main_v0)
          ∗ (((c : Thread nD τ).loc main_v1) ↦{fullShare} V m c main_v1)) :=
    bigSep_eq_bigSepL_of_eq [main_arg1, main_arg0, main_arg2, main_v0, main_v1] (by decide) (by decide) _
  rw [e1, bigSep_W0]
  iintro ⟨H1, H0, H2, H3, H4⟩
  ihave H1' := (pointsTo_share (PosShare.mem_left_op_right fullShare)).1 $$ H1
  icases H1' with ⟨Ha, Hb⟩
  have s0 : (dats m 0 c).share 0 = fullShare.left := rfl
  have s1 : (dats m 0 c).share 1 = fullShare.right := rfl
  have s2 : (dats m 0 c).share 2 = fullShare := rfl
  have s3 : (dats m 0 c).share 3 = fullShare := rfl
  have s4 : (dats m 0 c).share 4 = fullShare := rfl
  have s5 : (dats m 0 c).share 5 = fullShare := rfl
  rw [(arr_whole0 0).set_eq_univ, (arr_whole0 2).set_eq_univ, (arr_whole0 3).set_eq_univ,
    (arr_whole0 4).set_eq_univ, (arr_whole0 5).set_eq_univ, s0, s1, s2, s3, s4, s5]
  isplitl [Ha]; · iexact Ha
  isplitl [Hb]; · iexact Hb
  isplitl [H0]; · iexact H0
  isplitl [H2]; · iexact H2
  isplitl [H3]; · iexact H3
  iexact H4

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every window's array ends at
    what the write-backs made of it, and every other unscoped buffer as the region found it. -/
theorem run_main : θ_run defs (onTc (τ := τ) (main (F := F))) ⟨m, fun _ => 0, ρ⟩ (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The frame: the four argument arrays end as launched — the features, the adjacency matrix and the weights as
    inputs of the pipeline, the bias as a buffer the region never touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.KernelIdeal.Hand

end
-- ==== Proof.RowSpec.lean ====
/-
  One output row of a GraphSAGE layer, as a function of that row's data.

  For one node the layer forms the linear map of the node's own feature vector `s` (through the
  first half `wa` of the weight matrix) plus the linear map of the neighbour aggregate
  `∑ j, a j * feat j k` (through the second half `wb`), adds the bias, and divides the resulting
  128-vector by its Euclidean norm, the norm bounded below by a small positive constant. Everything
  is over the extended reals; only sums, products, one square root, one maximum and one quotient occur.
-/
import Idealize.ShloMosaic.PureOps.Ideal.Laws
import Idealize.ShloMosaic.Lib.ValueIdx

noncomputable section

open scoped BigOperators

namespace Cert.Sage

open Idealize.ShloMosaic

/-- The row before normalization, at column `q`:
    `(∑ k, s k * wa q k) + (∑ k, (∑ j, a j * feat j k) * wb q k) + b q`. -/
def rowlin (a : Fin 10000 → EReal) (s : Fin 128 → EReal) (feat : Fin 10000 → Fin 128 → EReal)
    (wa wb : Fin 128 → Fin 128 → EReal) (b : Fin 128 → EReal) (q : Fin 128) : EReal :=
  (∑ k : Fin 128, s k * wa q k) + (∑ k : Fin 128, (∑ j : Fin 10000, a j * feat j k) * wb q k) + b q

/-- The lower bound of the norm: the value of the single-precision word `0x2B8CBCCC` (about 1e-12).
    Both programs carry the same word, so its value is never computed. -/
def normFloor : EReal := Ideal.ofBits .f32 0x2B8CBCCC#32

/-- The normalized row at column `q`: the row divided by `max (sqrt (∑ q', lin q' * lin q')) floor`. -/
def rowval (a : Fin 10000 → EReal) (s : Fin 128 → EReal) (feat : Fin 10000 → Fin 128 → EReal)
    (wa wb : Fin 128 → Fin 128 → EReal) (b : Fin 128 → EReal) (q : Fin 128) : EReal :=
  Ideal.div (rowlin a s feat wa wb b q)
    (max (Ideal.sqrt (∑ q' : Fin 128, rowlin a s feat wa wb b q' * rowlin a s feat wa wb b q')) normFloor)

end Cert.Sage

end
-- ==== Proof.PayAt.lean ====
/-
  The two halves of an output block, read at one element.

  Each half of the block is computed from a 200-row slab `A` of the adjacency, the whole feature
  matrix `X`, the 200 matching rows `S` of `X`, the two halves `Wa`, `Wb` of the weight matrix and the
  bias row. At row `p` and column `q` the stored value is the normalized row of RowSpec: each matrix
  product into a zero accumulator is the sum of products over its one contracted axis, the bias row
  is read at column `q`, the lane sum is the sum over the 128 columns of row `p`, and the column of
  norms is read back at row `p`.
-/
import proofs.«109985_g49082886258797_cont_8to1_c_363_15_alg».proof.Proof.Gen.KernelIdeal.Skeleton
import proofs.«109985_g49082886258797_cont_8to1_c_363_15_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage

open Idealize.ShloMosaic Idealize.ShloMosaic.ValueIdx Cert.KernelIdeal Cert.KernelIdeal.Gen

/-- The dimension numbers of `x · wᵀ`: a [200,128] by a [128,128], both contracted on their second axis. -/
abbrev DW : DotDims S200x128 S128x128 S200x128 := dot_S200x128_S128x128_S200x128_1_1_0_0_n_n
/-- The dimension numbers of `a · x`: a [200,10000] by a [10000,128], contracted on the long axis. -/
abbrev DA : DotDims S200x10000 S10000x128 S200x128 := dot_S200x10000_S10000x128_S200x128_1_0_0_1_n_n

/-! ## The operand indices of the two products -/

theorem dw_lhs0 (i : S200x128.Idx) (c : DW.contr.Idx) : (DW.lhsIdx i c 0).val = (i 0).val := by
  unfold DotDims.lhsIdx
  rw [dif_neg (show ¬(0 : Fin S200x128.rank) ∈ DW.lhsBatch by decide), dif_pos (show (0 : Fin S200x128.rank) ∈ DW.lhsNonContracting by decide)]
  rfl
theorem dw_lhs1 (i : S200x128.Idx) (c : DW.contr.Idx) : (DW.lhsIdx i c 1).val = (c ⟨0, by decide⟩).val :=
  DW.lhsIdx_val_of_single rfl i c
theorem dw_rhs0 (i : S200x128.Idx) (c : DW.contr.Idx) : (DW.rhsIdx i c 0).val = (i 1).val := by
  unfold DotDims.rhsIdx
  rw [dif_neg (show ¬(0 : Fin S128x128.rank) ∈ DW.rhsBatch by decide), dif_pos (show (0 : Fin S128x128.rank) ∈ DW.rhsNonContracting by decide)]
  rfl
theorem dw_rhs1 (i : S200x128.Idx) (c : DW.contr.Idx) : (DW.rhsIdx i c 1).val = (c ⟨0, by decide⟩).val :=
  DW.rhsIdx_val_of_single rfl i c

theorem da_lhs0 (i : S200x128.Idx) (c : DA.contr.Idx) : (DA.lhsIdx i c 0).val = (i 0).val := by
  unfold DotDims.lhsIdx
  rw [dif_neg (show ¬(0 : Fin S200x10000.rank) ∈ DA.lhsBatch by decide), dif_pos (show (0 : Fin S200x10000.rank) ∈ DA.lhsNonContracting by decide)]
  rfl
theorem da_lhs1 (i : S200x128.Idx) (c : DA.contr.Idx) : (DA.lhsIdx i c 1).val = (c ⟨0, by decide⟩).val :=
  DA.lhsIdx_val_of_single rfl i c
theorem da_rhs0 (i : S200x128.Idx) (c : DA.contr.Idx) : (DA.rhsIdx i c 0).val = (c ⟨0, by decide⟩).val :=
  DA.rhsIdx_val_of_single rfl i c
theorem da_rhs1 (i : S200x128.Idx) (c : DA.contr.Idx) : (DA.rhsIdx i c 1).val = (i 1).val := by
  unfold DotDims.rhsIdx
  rw [dif_neg (show ¬(1 : Fin S10000x128.rank) ∈ DA.rhsBatch by decide), dif_pos (show (1 : Fin S10000x128.rank) ∈ DA.rhsNonContracting by decide)]
  rfl

/-! ## The two products at an element -/

/-- `x · wᵀ` into a zero accumulator, at `(p, q)`: `∑ k, x (p, k) * w (q, k)`. -/
theorem mm_w_apply (x : FVec Ideal S200x128 .f32) (w : FVec Ideal S128x128 .f32) (p : Fin 200) (q : Fin 128) :
    matmul DW none x w (constant S200x128 .f32 0x00000000#32) (ix2 p q) = ∑ k : Fin 128, x (ix2 p k) * w (ix2 q k) := by
  show FloatOps.matmul DW none x w (constant S200x128 .f32 0x00000000#32) (ix2 p q) = _
  rw [Ideal.matmul_constant_zero_apply, ← Equiv.sum_comp (contrEquiv1 DW 128 rfl rfl).symm]
  refine Finset.sum_congr rfl fun k _ => ?_
  have hk := contrEquiv1_symm_val DW 128 rfl rfl k
  have el : DW.lhsIdx (ix2 p q) ((contrEquiv1 DW 128 rfl rfl).symm k) = ix2 p k := funext fun a => Fin.ext (by
    match a with
    | ⟨0, _⟩ => exact dw_lhs0 _ _
    | ⟨1, _⟩ => exact (dw_lhs1 _ _).trans hk)
  have er : DW.rhsIdx (ix2 p q) ((contrEquiv1 DW 128 rfl rfl).symm k) = ix2 q k := funext fun a => Fin.ext (by
    match a with
    | ⟨0, _⟩ => exact dw_rhs0 _ _
    | ⟨1, _⟩ => exact (dw_rhs1 _ _).trans hk)
  rw [el, er]

/-- `a · x` into a zero accumulator, at `(p, k)`: `∑ j, a (p, j) * x (j, k)`. -/
theorem mm_a_apply (a : FVec Ideal S200x10000 .f32) (x : FVec Ideal S10000x128 .f32) (p : Fin 200) (k : Fin 128) :
    matmul DA none a x (constant S200x128 .f32 0x00000000#32) (ix2 p k) = ∑ j : Fin 10000, a (ix2 p j) * x (ix2 j k) := by
  show FloatOps.matmul DA none a x (constant S200x128 .f32 0x00000000#32) (ix2 p k) = _
  rw [Ideal.matmul_constant_zero_apply, ← Equiv.sum_comp (contrEquiv1 DA 10000 rfl rfl).symm]
  refine Finset.sum_congr rfl fun j _ => ?_
  have hj := contrEquiv1_symm_val DA 10000 rfl rfl j
  have el : DA.lhsIdx (ix2 p k) ((contrEquiv1 DA 10000 rfl rfl).symm j) = ix2 p j := funext fun a => Fin.ext (by
    match a with
    | ⟨0, _⟩ => exact da_lhs0 _ _
    | ⟨1, _⟩ => exact (da_lhs1 _ _).trans hj)
  have er : DA.rhsIdx (ix2 p k) ((contrEquiv1 DA 10000 rfl rfl).symm j) = ix2 j k := funext fun a => Fin.ext (by
    match a with
    | ⟨0, _⟩ => exact (da_rhs0 _ _).trans hj
    | ⟨1, _⟩ => exact da_rhs1 _ _)
  rw [el, er]

/-! ## The row before normalization -/

/-- The sum of the two products and the broadcast bias row, at `(p, q)`, is RowSpec's `rowlin` of row `p`'s data. -/
theorem lin_apply (a : FVec Ideal S200x10000 .f32) (x : FVec Ideal S10000x128 .f32) (s : FVec Ideal S200x128 .f32)
    (wa wb : FVec Ideal S128x128 .f32) (b : FVec Ideal S1x128 .f32) (p : Fin 200) (q : Fin 128) :
    addf (addf (matmul DW none s wa (constant S200x128 .f32 0x00000000#32))
        (matmul DW none (matmul DA none a x (constant S200x128 .f32 0x00000000#32)) wb (constant S200x128 .f32 0x00000000#32)))
      (broadcastTo S200x128 (shapeCast S1x128 b shapeCasts_S1x128_S1x128) broadcasts_S1x128_S200x128) (ix2 p q)
      = rowlin (fun j => a (ix2 p j)) (fun k => s (ix2 p k)) (fun j k => x (ix2 j k)) (fun c k => wa (ix2 c k))
          (fun c k => wb (ix2 c k)) (fun c => b (ix2 0 c)) q := by
  rw [addf_apply, addf_apply, mm_w_apply, mm_w_apply, shapeCast_self, broadcastTo_1b_ab_apply]
  unfold rowlin
  refine congrArg₂ (· + ·) (congrArg₂ (· + ·) rfl (Finset.sum_congr rfl fun k _ => ?_)) rfl
  rw [mm_a_apply]

/-! ## The normalization -/

/-- The column of row sums read back at a row: a [200] vector viewed [200,1], at `(p, 0)`. -/
theorem col_apply {α : Type} (v : S200.Idx → α) (p : Fin 200) (u : Fin 1) :
    shapeCast S200x1 v shapeCasts_S200_S200x1 (ix2 p u) = v (ix1 p) :=
  shapeCast_apply v shapeCasts_S200_S200x1 _ _ (by
    have hu : u.val = 0 := by omega
    rw [Shape.rowMajor_val_two, Shape.rowMajor_val_one]
    show p.val = p.val * 1 + u.val
    rw [hu, Nat.mul_one, Nat.add_zero])

/-- A [200,1] column broadcast over the 128 columns, at `(p, q)`: the column at row `p`. -/
theorem bcol_apply {α : Type} (v : S200x1.Idx → α) (p : Fin 200) (q : Fin 128) :
    broadcastTo S200x128 v broadcasts_S200x1_S200x128 (ix2 p q) = v (ix2 p (0 : Fin 1)) := by
  refine broadcastTo_apply v broadcasts_S200x1_S200x128 (ix2 p q) (ix2 p (0 : Fin 1)) fun ax => ?_
  match ax with
  | ⟨0, _⟩ =>
    show p.val = if (200 : Nat) = 1 then 0 else p.val
    rw [if_neg (by decide)]
  | ⟨1, _⟩ =>
    show (0 : Nat) = if (1 : Nat) = 1 then 0 else q.val
    rw [if_pos rfl]

/-- The lane sum of a [200,128] vector at row `p`: the sum over the 128 columns. -/
theorem lane_apply (y : FVec Ideal S200x128 .f32) (hacc : (0x00000000#32 : BitVec 32) = 0x00000000#32) (p : Fin 200) :
    multiReduction .add [1] S200 y 0x00000000#32 reduces_S200x128_S200 (.inl rfl) hacc (ix1 p) = ∑ c : Fin 128, y (ix2 p c) := by
  refine (Ideal.multiReduction_add_single y 0x00000000#32 reduces_S200x128_S200 (.inl rfl) hacc (ix1 p)).trans ?_
  refine Finset.sum_congr rfl fun c _ => congrArg y (funext fun ax => Fin.ext ?_)
  match ax with
  | ⟨0, _⟩ => rfl
  | ⟨1, _⟩ => rfl

/-- A [200,128] vector divided by the broadcast column `max (sqrt (row sums of squares)) floor`, at `(p, q)`. -/
theorem norm_apply (y : FVec Ideal S200x128 .f32) (p : Fin 200) (q : Fin 128) :
    divf y (broadcastTo S200x128
        (maximumf (sqrt (shapeCast S200x1 (multiReduction .add [1] S200 (mulf y y) 0x00000000#32 reduces_S200x128_S200 (.inl rfl) rfl)
            shapeCasts_S200_S200x1))
          (broadcast S200x1 (Scalar.ofBits (F := Ideal) .f32 0x2B8CBCCC#32)))
        broadcasts_S200x1_S200x128) (ix2 p q)
      = Ideal.div (y (ix2 p q)) (max (Ideal.sqrt (∑ c : Fin 128, y (ix2 p c) * y (ix2 p c))) normFloor) := by
  rw [divf_apply, bcol_apply, maximumf_apply]
  show Ideal.div _ (max (Ideal.sqrt (shapeCast S200x1 _ shapeCasts_S200_S200x1 (ix2 p (0 : Fin 1)))) normFloor) = _
  rw [col_apply, lane_apply]
  rfl

/-! ## The two stored halves -/

/-- The first half of the block at `(p, q)`. -/
theorem pay2_at (v0 : Vec Ideal S200x10000 .f32) (v1 : Vec Ideal S10000x128 .f32) (v7 : Vec Ideal S200x128 .f32)
    (v8 v10 : Vec Ideal S128x128 .f32) (v13 : Vec Ideal S1x128 .f32) (p : Fin 200) (q : Fin 128) :
    k0_pay2 (F := Ideal) v0 v1 v7 v8 v10 v13 (ix2 p q)
      = rowval (fun j => v0 (ix2 p j)) (fun k => v7 (ix2 p k)) (fun j k => v1 (ix2 j k)) (fun c k => v8 (ix2 c k))
          (fun c k => v10 (ix2 c k)) (fun c => v13 (ix2 0 c)) q := by
  unfold k0_pay2
  refine (norm_apply _ p q).trans ?_
  unfold rowval
  simp only [lin_apply]

/-- The second half of the block at `(p, q)`; its neighbour aggregate is the product computed before it. -/
theorem pay1_at (v26 : Vec Ideal S200x10000 .f32) (v27 : Vec Ideal S10000x128 .f32) (v33 : Vec Ideal S200x128 .f32)
    (v34 v36 : Vec Ideal S128x128 .f32) (v39 : Vec Ideal S1x128 .f32) (p : Fin 200) (q : Fin 128) :
    k0_pay1 (F := Ideal) (k0_pay3 v26 v27) v33 v34 v36 v39 (ix2 p q)
      = rowval (fun j => v26 (ix2 p j)) (fun k => v33 (ix2 p k)) (fun j k => v27 (ix2 j k)) (fun c k => v34 (ix2 c k))
          (fun c k => v36 (ix2 c k)) (fun c => v39 (ix2 0 c)) q := by
  unfold k0_pay1 k0_pay3
  refine (norm_apply _ p q).trans ?_
  unfold rowval
  simp only [lin_apply]

end Cert.Sage

end
-- ==== Proof.BlockAt.lean ====
/-
  The output block of one grid point, read at one element.

  A grid point `i` leaves a 400-row block whose rows 0‥199 and 200‥399 are written by two separate
  stores. A row below 200 lies only under the first half's store and a row `200 + p` only under the
  second half's, so the block at that row is that half's stored value; by PayAt it is RowSpec's
  normalized row of the data the half loaded. The loads read their arrays at the offsets of their
  rectangles: the adjacency slab, the feature matrix, the weight halves (columns `k` and `128 + k`)
  and the bias row are read in place, and the half's own feature rows start at row
  `400 · i + 200 · s` for half `s`.
-/
import proofs.«109985_g49082886258797_cont_8to1_c_363_15_alg».proof.Proof.BodyIdeal
import proofs.«109985_g49082886258797_cont_8to1_c_363_15_alg».proof.Proof.PayAt

noncomputable section

open scoped BigOperators

namespace Cert.Sage

open Idealize.ShloMosaic Idealize.ShloMosaic.ValueIdx Cert.KernelIdeal Cert.KernelIdeal.Gen Cert.KernelIdeal.Hand

/-- The grid has 25 points. -/
theorem point_lt (i : grid0.Coords) : (i 0).val < 25 := (i 0).isLt

/-! ## A load through a unit-stride rectangle of a rank-2 array, at an element -/

/-- The element `y` of a load through the rectangle at offsets `off` is the array at `off + y`, coordinate by coordinate. -/
theorem ld_unit_ix2 {Val : EltTy → Type} {e : EltTy} {n0 n1 : Nat} (X : (⟨2, ![n0, n1]⟩ : Shape).Idx → Val e)
    (off size : Fin 2 → Nat) (inb : ∀ a, off a + size a ≤ (⟨2, ![n0, n1]⟩ : Shape).size a)
    (y : (Rect.unit (s := ⟨2, ![n0, n1]⟩) off size inb).shape.Idx) (a' : Fin n0) (b' : Fin n1)
    (h0 : a'.val = off 0 + (y 0).val) (h1 : b'.val = off 1 + (y 1).val) :
    View.ld X (Rect.unit (s := ⟨2, ![n0, n1]⟩) off size inb) y = X (ix2 a' b') :=
  congrArg X (funext fun ax => Fin.ext (by
    match ax with
    | ⟨0, _⟩ =>
      show off 0 + 1 * (y 0).val = a'.val
      omega
    | ⟨1, _⟩ =>
      show off 1 + 1 * (y 1).val = b'.val
      omega))

/-! ## The loads of the body at an element -/

theorem adj_at (x : Vec Ideal S200x10000 .f32) (p : Fin 200) (j : Fin 10000) : View.ld x rAdj (ix2 p j) = x (ix2 p j) :=
  ld_unit_ix2 x _ _ _ (ix2 p j) p j (by show p.val = 0 + p.val; omega) (by show j.val = 0 + j.val; omega)

theorem feat_at (x : Vec Ideal S10000x128 .f32) (j : Fin 10000) (k : Fin 128) : View.ld x rFeat (ix2 j k) = x (ix2 j k) :=
  ld_unit_ix2 x _ _ _ (ix2 j k) j k (by show j.val = 0 + j.val; omega) (by show k.val = 0 + k.val; omega)

theorem wa_at (x : Vec Ideal S128x256 .f32) (c k : Fin 128) : View.ld x rWa (ix2 c k) = x (ix2 c ⟨k.val, by omega⟩) :=
  ld_unit_ix2 x _ _ _ (ix2 c k) c ⟨k.val, by omega⟩ (by show c.val = 0 + c.val; omega) (by show k.val = 0 + k.val; omega)

theorem wb_at (x : Vec Ideal S128x256 .f32) (c k : Fin 128) : View.ld x rWb (ix2 c k) = x (ix2 c ⟨128 + k.val, by omega⟩) :=
  ld_unit_ix2 x _ _ _ (ix2 c k) c ⟨128 + k.val, by omega⟩ (by show c.val = 0 + c.val; omega) (by show 128 + k.val = 128 + k.val; rfl)

theorem bias_at (x : Vec Ideal S1x128 .f32) (c : Fin 128) : View.ld x rBias (ix2 (0 : Fin 1) c) = x (ix2 (0 : Fin 1) c) :=
  ld_unit_ix2 x _ _ _ (ix2 (0 : Fin 1) c) 0 c (by show (0 : Nat) = 0 + 0; rfl) (by show c.val = 0 + c.val; omega)

/-- The first half's own feature rows start at row `400 · i`. -/
theorem self0_at (i : grid0.Coords) (x : Vec Ideal S10000x128 .f32) (p : Fin 200) (k : Fin 128) :
    View.ld x (rSelf0 i) (ix2 p k) = x (ix2 ⟨400 * (i 0).val + p.val, by have := point_lt i; omega⟩ k) := by
  have e : k0_off1 i 0#32 = ![400 * (i 0).val + 200 * 0, 0] := k0_off1_eq i ⟨0, by decide⟩
  refine ld_unit_ix2 x _ _ _ (ix2 p k) _ k ?_ ?_
  · show 400 * (i 0).val + p.val = k0_off1 i 0#32 0 + p.val
    rw [e]
    show 400 * (i 0).val + p.val = 400 * (i 0).val + 200 * 0 + p.val
    omega
  · show k.val = k0_off1 i 0#32 1 + k.val
    rw [e]
    show k.val = 0 + k.val
    omega

/-- The second half's own feature rows start at row `400 · i + 200`. -/
theorem self1_at (i : grid0.Coords) (x : Vec Ideal S10000x128 .f32) (p : Fin 200) (k : Fin 128) :
    View.ld x (rSelf1 i) (ix2 p k) = x (ix2 ⟨400 * (i 0).val + 200 + p.val, by have := point_lt i; omega⟩ k) := by
  have e : k0_off1 i 1#32 = ![400 * (i 0).val + 200 * 1, 0] := k0_off1_eq i ⟨1, by decide⟩
  refine ld_unit_ix2 x _ _ _ (ix2 p k) _ k ?_ ?_
  · show 400 * (i 0).val + 200 + p.val = k0_off1 i 1#32 0 + p.val
    rw [e]
    show 400 * (i 0).val + 200 + p.val = 400 * (i 0).val + 200 * 1 + p.val
    omega
  · show k.val = k0_off1 i 1#32 1 + k.val
    rw [e]
    show k.val = 0 + k.val
    omega

/-! ## Which store a row lies under -/

/-- Row `200 + p` of the block is row `p` of the later store's rectangle. -/
theorem hi_emb (p : Fin 200) (q : Fin 128) :
    (ix2 (⟨200 + p.val, by omega⟩ : Fin 400) q : S400x128.Idx) = rOut1.emb (ix2 p q) :=
  funext fun ax => Fin.ext (by
    match ax with
    | ⟨0, _⟩ =>
      show 200 + p.val = 200 + 1 * p.val
      omega
    | ⟨1, _⟩ =>
      show q.val = 0 + 1 * q.val
      omega)

/-- Row `p < 200` of the block is row `p` of the earlier store's rectangle … -/
theorem lo_emb (p : Fin 200) (q : Fin 128) :
    (ix2 (⟨p.val, by omega⟩ : Fin 400) q : S400x128.Idx) = rOut0.emb (ix2 p q) :=
  funext fun ax => Fin.ext (by
    match ax with
    | ⟨0, _⟩ =>
      show p.val = 0 + 1 * p.val
      omega
    | ⟨1, _⟩ =>
      show q.val = 0 + 1 * q.val
      omega)

/-- … and is not under the later store, whose rows start at 200. -/
theorem lo_not_mem (p : Fin 200) (q : Fin 128) :
    (ix2 (⟨p.val, by omega⟩ : Fin 400) q : S400x128.Idx) ∉ (rOut1 : Rect S400x128).set := by
  rw [Rect.mem_set_unit]
  intro h
  have h0 := (h 0).1
  have : (200 : Nat) ≤ p.val := h0
  omega

/-! ## The two stores read back -/

/-- A row below 200 reads the earlier store's value. -/
theorem canon_lo (w1 w0 : Vec Ideal S200x128 .f32) (p : Fin 200) (q : Fin 128) :
    View.canon [(⟨rOut1, w1⟩ : View.Piece (Elt Ideal) S400x128 .f32), ⟨rOut0, w0⟩] (ix2 (⟨p.val, by omega⟩ : Fin 400) q)
      = w0 (ix2 p q) := by
  refine (View.canon_cons_of_not_mem (⟨rOut1, w1⟩ : View.Piece (Elt Ideal) S400x128 .f32) [⟨rOut0, w0⟩] (lo_not_mem p q)).trans ?_
  rw [lo_emb]
  exact View.canon_cons_emb rOut0 w0 [] (ix2 p q)

/-- A row `200 + p` reads the later store's value. -/
theorem canon_hi (w1 w0 : Vec Ideal S200x128 .f32) (p : Fin 200) (q : Fin 128) :
    View.canon [(⟨rOut1, w1⟩ : View.Piece (Elt Ideal) S400x128 .f32), ⟨rOut0, w0⟩] (ix2 (⟨200 + p.val, by omega⟩ : Fin 400) q)
      = w1 (ix2 p q) := by
  rw [hi_emb]
  exact View.canon_cons_emb rOut1 w1 [⟨rOut0, w0⟩] (ix2 p q)

/-! ## The block at an element -/

/-- The normalized row depends only on the values of its data. -/
theorem rowval_congr {a a' : Fin 10000 → EReal} {s s' : Fin 128 → EReal} {feat feat' : Fin 10000 → Fin 128 → EReal}
    {wa wa' wb wb' : Fin 128 → Fin 128 → EReal} {b b' : Fin 128 → EReal}
    (ha : ∀ j, a j = a' j) (hs : ∀ k, s k = s' k) (hf : ∀ j k, feat j k = feat' j k) (hwa : ∀ c k, wa c k = wa' c k)
    (hwb : ∀ c k, wb c k = wb' c k) (hb : ∀ c, b c = b' c) (q : Fin 128) :
    rowval a s feat wa wb b q = rowval a' s' feat' wa' wb' b' q := by
  obtain rfl : a = a' := funext ha
  obtain rfl : s = s' := funext hs
  obtain rfl : feat = feat' := funext fun j => funext (hf j)
  obtain rfl : wa = wa' := funext fun c => funext (hwa c)
  obtain rfl : wb = wb' := funext fun c => funext (hwb c)
  obtain rfl : b = b' := funext hb
  rfl

/-- Rows 0‥199 of the block of point `i`: the normalized rows of the first adjacency slab. -/
theorem outBlock_lo (i : grid0.Coords) (x0 x1 : Vec Ideal S200x10000 .f32) (x2 : Vec Ideal S10000x128 .f32)
    (x3 : Vec Ideal S128x256 .f32) (x4 : Vec Ideal S1x128 .f32) (p : Fin 200) (q : Fin 128) :
    outBlock (F := Ideal) i x0 x1 x2 x3 x4 (ix2 (⟨p.val, by omega⟩ : Fin 400) q)
      = rowval (fun j => x0 (ix2 p j))
          (fun k => x2 (ix2 (⟨400 * (i 0).val + p.val, by have := point_lt i; omega⟩ : Fin 10000) k))
          (fun j k => x2 (ix2 j k)) (fun c k => x3 (ix2 c ⟨k.val, by omega⟩)) (fun c k => x3 (ix2 c ⟨128 + k.val, by omega⟩))
          (fun c => x4 (ix2 0 c)) q := by
  unfold outBlock
  refine (canon_lo _ _ p q).trans ((pay2_at _ _ _ _ _ _ p q).trans ?_)
  exact rowval_congr (adj_at x0 p) (self0_at i x2 p) (feat_at x2) (wa_at x3) (wb_at x3) (bias_at x4) q

/-- Rows 200‥399 of the block of point `i`: the normalized rows of the second adjacency slab. -/
theorem outBlock_hi (i : grid0.Coords) (x0 x1 : Vec Ideal S200x10000 .f32) (x2 : Vec Ideal S10000x128 .f32)
    (x3 : Vec Ideal S128x256 .f32) (x4 : Vec Ideal S1x128 .f32) (p : Fin 200) (q : Fin 128) :
    outBlock (F := Ideal) i x0 x1 x2 x3 x4 (ix2 (⟨200 + p.val, by omega⟩ : Fin 400) q)
      = rowval (fun j => x1 (ix2 p j))
          (fun k => x2 (ix2 (⟨400 * (i 0).val + 200 + p.val, by have := point_lt i; omega⟩ : Fin 10000) k))
          (fun j k => x2 (ix2 j k)) (fun c k => x3 (ix2 c ⟨k.val, by omega⟩)) (fun c k => x3 (ix2 c ⟨128 + k.val, by omega⟩))
          (fun c => x4 (ix2 0 c)) q := by
  unfold outBlock
  refine (canon_hi _ _ p q).trans ((pay1_at _ _ _ _ _ _ p q).trans ?_)
  exact rowval_congr (adj_at x1 p) (self1_at i x2 p) (feat_at x2) (wa_at x3) (wb_at x3) (bias_at x4) q

end Cert.Sage

end
-- ==== Proof.RefSide.lean ====
/-
  The reference program's result, read at one element.

  The reference forms, for every node `r`, the 256-vector `[x r, (adj · x) r]`, multiplies it by the
  transposed weight matrix in one contraction over 256, adds the bias, and divides the row by its
  norm bounded below. Splitting the contraction over 256 into its first and last 128 terms — the
  first 128 read the node's own features against the first half of the weights, the last 128 read
  the neighbour aggregate against the second half — gives RowSpec's row. Only associativity of the
  sum is used.
-/
import proofs.«109985_g49082886258797_cont_8to1_c_363_15_alg».proof.Proof.Gen.ReferenceIdeal.Read
import proofs.«109985_g49082886258797_cont_8to1_c_363_15_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage

open Idealize.ShloMosaic Idealize.ShloMosaic.ValueIdx Cert.ReferenceIdeal Cert.ReferenceIdeal.Gen Cert.ReferenceIdeal.Read

/-! ## The joined array `[x, adj · x]` at an element -/

/-- A column below 128 of the joined array reads the features. -/
theorem join_left (x0 : (⟨S10000x128, .f32⟩ : BufTy).Contents (Elt Ideal)) (x1 : (⟨S10000x10000, .f32⟩ : BufTy).Contents (Elt Ideal))
    (j : S10000x256.Idx) (r : Fin 10000) (k : Fin 128) (h0 : (j 0).val = r.val) (h1 : (j 1).val = k.val) :
    val_main_v1 (F := Ideal) x0 x1 j = x0 (ix2 r k) := by
  unfold val_main_v1
  refine concatenate_pair_apply_left (t := S10000x256) (s₁ := S10000x128) (s₂ := S10000x128) (1 : Fin S10000x256.rank) x0 _ _ j rfl (ix2 r k) fun b => ?_
  match b with
  | ⟨0, _⟩ => exact h0.symm
  | ⟨1, _⟩ => exact h1.symm

/-- A column `128 + k` of the joined array reads the neighbour aggregate at column `k`. -/
theorem join_right (x0 : (⟨S10000x128, .f32⟩ : BufTy).Contents (Elt Ideal)) (x1 : (⟨S10000x10000, .f32⟩ : BufTy).Contents (Elt Ideal))
    (j : S10000x256.Idx) (r : Fin 10000) (k : Fin 128) (h0 : (j 0).val = r.val) (h1 : (j 1).val = 128 + k.val) :
    val_main_v1 (F := Ideal) x0 x1 j = val_main_v0 (F := Ideal) x0 x1 (ix2 r k) := by
  unfold val_main_v1
  refine concatenate_pair_apply_right (t := S10000x256) (s₁ := S10000x128) (s₂ := S10000x128) (1 : Fin S10000x256.rank) x0 _ _ j rfl rfl (ix2 r k) (fun b hb => ?_) ?_
  · match b with
    | ⟨0, _⟩ => exact h0.symm
    | ⟨1, _⟩ => exact absurd rfl hb
  · show k.val + 128 = (j 1).val
    omega

/-- The neighbour aggregate at `(r, k)`: `∑ j, adj (r, j) * x (j, k)`. -/
theorem agg_at (x0 : (⟨S10000x128, .f32⟩ : BufTy).Contents (Elt Ideal)) (x1 : (⟨S10000x10000, .f32⟩ : BufTy).Contents (Elt Ideal))
    (r : Fin 10000) (k : Fin 128) :
    val_main_v0 (F := Ideal) x0 x1 (ix2 r k) = ∑ j : Fin 10000, x1 (ix2 r j) * x0 (ix2 j k) := by
  rw [val_main_v0_apply]
  refine Finset.sum_congr rfl fun j _ => congrArg₂ (· * ·) (congrArg x1 (funext fun a => Fin.ext ?_)) (congrArg x0 (funext fun a => Fin.ext ?_))
  · match a with
    | ⟨0, _⟩ => rfl
    | ⟨1, _⟩ => rfl
  · match a with
    | ⟨0, _⟩ => rfl
    | ⟨1, _⟩ => rfl

/-! ## The row before normalization -/

/-- The contraction over 256 plus the bias, at `(r, q)`, is RowSpec's `rowlin` of node `r`'s data. -/
theorem lin_at (x0 : (⟨S10000x128, .f32⟩ : BufTy).Contents (Elt Ideal)) (x1 : (⟨S10000x10000, .f32⟩ : BufTy).Contents (Elt Ideal))
    (x2 : (⟨S128x256, .f32⟩ : BufTy).Contents (Elt Ideal)) (x3 : (⟨S128, .f32⟩ : BufTy).Contents (Elt Ideal)) (r : Fin 10000) (q : Fin 128) :
    val_main_v6 (F := Ideal) x0 x1 x2 x3 (ix2 r q)
      = rowlin (fun j => x1 (ix2 r j)) (fun k => x0 (ix2 r k)) (fun j k => x0 (ix2 j k)) (fun c k => x2 (ix2 c ⟨k.val, by omega⟩))
          (fun c k => x2 (ix2 c ⟨128 + k.val, by omega⟩)) (fun c => x3 (ix1 c)) q := by
  rw [val_main_v6_apply, val_main_v3_apply, val_main_v5_apply, val_main_v4_apply]
  unfold rowlin
  show (∑ k : Fin (128 + 128), _) + _ = _
  refine congrArg₂ (· + ·) ?_ (congrArg x3 (funext fun a => Fin.ext (by match a with | ⟨0, _⟩ => rfl)))
  rw [Fin.sum_univ_add]
  refine congrArg₂ (· + ·) (Finset.sum_congr rfl fun k _ => ?_) (Finset.sum_congr rfl fun k _ => ?_)
  · rw [join_left x0 x1 _ r k rfl rfl, val_main_v2_apply]
    refine congrArg (x0 (ix2 r k) * ·) (congrArg x2 (funext fun a => Fin.ext ?_))
    match a with
    | ⟨0, _⟩ => rfl
    | ⟨1, _⟩ => rfl
  · rw [join_right x0 x1 _ r k rfl rfl, val_main_v2_apply, agg_at]
    refine congrArg ((∑ j : Fin 10000, x1 (ix2 r j) * x0 (ix2 j k)) * ·) (congrArg x2 (funext fun a => Fin.ext ?_))
    match a with
    | ⟨0, _⟩ => rfl
    | ⟨1, _⟩ => rfl

/-! ## The result -/

/-- The row whose squares are summed for the norm of `(r, q)` is row `r`. -/
theorem norm_row (r : Fin 10000) (q k : Fin 128) :
    idx_main_v8 (idx_main_v9 (idx_main_v13 (ix2 r q))) k = ix2 r k :=
  funext fun a => Fin.ext (by
    match a with
    | ⟨0, _⟩ => rfl
    | ⟨1, _⟩ => rfl)

/-- The reference's result at `(r, q)` is RowSpec's normalized row of node `r`'s data. -/
theorem ref_at (x0 : (⟨S10000x128, .f32⟩ : BufTy).Contents (Elt Ideal)) (x1 : (⟨S10000x10000, .f32⟩ : BufTy).Contents (Elt Ideal))
    (x2 : (⟨S128x256, .f32⟩ : BufTy).Contents (Elt Ideal)) (x3 : (⟨S128, .f32⟩ : BufTy).Contents (Elt Ideal)) (r : Fin 10000) (q : Fin 128) :
    Cert.ReferenceIdeal.Read.val_main_v14 (F := Ideal) x0 x1 x2 x3 (ix2 r q)
      = rowval (fun j => x1 (ix2 r j)) (fun k => x0 (ix2 r k)) (fun j k => x0 (ix2 j k)) (fun c k => x2 (ix2 c ⟨k.val, by omega⟩))
          (fun c k => x2 (ix2 c ⟨128 + k.val, by omega⟩)) (fun c => x3 (ix1 c)) q := by
  rw [val_main_v14_apply, val_main_v13_apply, val_main_v12_apply, val_main_v10_apply, val_main_v9_apply, val_main_v8_apply,
    val_main_v11_apply, val_main_cst_0_apply, val_main_cst_apply]
  simp only [val_main_v7_apply, norm_row, lin_at]
  unfold rowval normFloor
  simp only [Ideal.hostDivf_def, Ideal.maximumf_def, Ideal.hostUnary_sqrt_def, Ideal.ofBits_def, Ideal.mulf_def,
    Ideal.ofBits_zero_f32, zero_add]

end Cert.Sage

end
-- ==== Proof.ValueIdeal.lean ====
import proofs.«109985_g49082886258797_cont_8to1_c_363_15_alg».proof.Proof.FrameIdeal
import proofs.«109985_g49082886258797_cont_8to1_c_363_15_alg».proof.Proof.BlockAt
import proofs.«109985_g49082886258797_cont_8to1_c_363_15_alg».proof.Proof.RefSide
import Idealize.ShloMosaic.Lib.Pipeline.Value
import Idealize.ShloMosaic.Lib.ValueIdx
import Idealize.ShloMosaic.Lib.ValueLayout

/-!
# The kernel's result array as one function of its arguments, over the extended reals

Point `t` of the grid writes back rows `400·t … 400·t + 399` of the result. Row `400·t + p` of that block is the
normalized row built from adjacency row `400·t + p` (found in the first window's block for `p < 200`, block index
`2t`, and in the second window's for `p ≥ 200`, block index `2t + 1`), from the node's own feature row at the row
offset the body computes, and from the whole feature matrix, the two halves of the weights and the bias row. So every
written block is the restriction of ONE function of the arrays, the 25 blocks tile the 10000 rows, and the result
array ends at that function. The reference's result is the same function, element by element.
-/

set_option maxRecDepth 16384

noncomputable section

namespace Cert.Sage

open Cert.KernelIdeal Cert.KernelIdeal.Gen Cert.KernelIdeal.Hand
open Idealize.ShloMosaic Idealize.ShloMosaic.TcCoe Idealize.SL.Sem
open Idealize.ShloMosaic.Pipeline (Dat Cfg Window)
open ValueIdx

variable (m : (ℓ : Loc nD τ sig) → Buf (Elt Ideal) ℓ) (ρ : Dev nD → PrngReg)

/-- The facts about the grid's points and the windows' block indices, decided over the 25 points. -/
theorem pt_facts : ∀ t : Fin cfg0.N, (grid0.coords t 0).val = t.val
    ∧ win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer's output as one function of the feature matrix, the adjacency matrix, the weights and the bias ROW. -/
def Gv (A0 : S10000x128.Idx → EReal) (A1 : S10000x10000.Idx → EReal) (A2 : S128x256.Idx → EReal) (B : S1x128.Idx → EReal) :
    S10000x128.Idx → EReal :=
  fun i => rowval (fun j => A1 (ix2 (i 0) j)) (fun k => A0 (ix2 (i 0) k)) (fun j k => A0 (ix2 j k))
    (fun c k => A2 (ix2 c ⟨k.val, by omega⟩)) (fun c k => A2 (ix2 c ⟨128 + k.val, by omega⟩)) (fun c => B (ix2 0 c)) (i 1)

/-- What point `t` writes back is block `t` of the layer's output over the region-entry arrays. -/
theorem flushed_eq (c : Dev nD) (t : Fin cfg0.N) :
    (dats (F := Ideal) m 0 c).flushed 5 t
      = ((cfg0.win 5).blk t).view.read (Elt Ideal) (Gv (V m c main_arg0) (V m c main_arg1) (V m c main_arg2) (V m c main_v0)) := by
  show (cfg0.win 5).cut (grid0.coords t) ((dats m 0 c).after 5 t) = _
  rw [after_5]
  obtain ⟨ec, e00, e01, e10, e11, e20, e21, e30, e31, e40, e41, e50, e51⟩ := pt_facts t
  have ht : t.val < 25 := lt_of_lt_of_eq t.isLt N_0
  funext y
  revert y
  show ∀ y : S400x128.Idx, outBlock (F := Ideal) (grid0.coords t) (iblk m c 0 t) (iblk m c 1 t) (iblk m c 2 t) (iblk m c 3 t) (iblk m c 4 t) y
      = Gv (V m c main_arg0) (V m c main_arg1) (V m c main_arg2) (V m c main_v0) (((cfg0.win 5).blk t).view.emb y)
  intro y
  obtain ⟨p', q, rfl⟩ : ∃ (p' : Fin 400) (q : Fin 128), y = ix2 p' q := ⟨y 0, y 1, eq_ix2 y⟩
  have hemb : ((cfg0.win 5).blk t).view.emb (ix2 p' q) = (ix2 ⟨400 * t.val + p'.val, by omega⟩ q : S10000x128.Idx) := by
    funext a; apply Fin.ext
    match a with
    | ⟨0, _⟩ => show win0_5.index t (0 : Fin 2) * 400 + 1 * p'.val = 400 * t.val + p'.val; omega
    | ⟨1, _⟩ => show win0_5.index t (1 : Fin 2) * 128 + 1 * q.val = q.val; omega
  rw [hemb]
  unfold Gv
  by_cases hp : p'.val < 200
  · have hy : (ix2 p' q : S400x128.Idx) = ix2 ⟨(⟨p'.val, hp⟩ : Fin 200).val, by omega⟩ q := rfl
    rw [hy, outBlock_lo]
    refine rowval_congr (fun j => ?_) (fun k => ?_) (fun j k => ?_) (fun c' k => ?_) (fun c' k => ?_) (fun c' => ?_) q
    · show V m c main_arg1 (((cfg0.win 0).blk t).view.emb _) = V m c main_arg1 _
      refine congrArg _ (funext fun a => Fin.ext ?_)
      match a with
      | ⟨0, _⟩ => show win0_0.index t (0 : Fin 2) * 200 + 1 * p'.val = 400 * t.val + p'.val; omega
      | ⟨1, _⟩ => show win0_0.index t (1 : Fin 2) * 10000 + 1 * j.val = j.val; omega
    · show V m c main_arg0 (((cfg0.win 2).blk t).view.emb _) = V m c main_arg0 _
      refine congrArg _ (funext fun a => Fin.ext ?_)
      match a with
      | ⟨0, _⟩ => show win0_2.index t (0 : Fin 2) * 10000 + 1 * (400 * (grid0.coords t 0).val + p'.val) = 400 * t.val + p'.val; omega
      | ⟨1, _⟩ => show win0_2.index t (1 : Fin 2) * 128 + 1 * k.val = k.val; omega
    · show V m c main_arg0 (((cfg0.win 2).blk t).view.emb _) = V m c main_arg0 _
      refine congrArg _ (funext fun a => Fin.ext ?_)
      match a with
      | ⟨0, _⟩ => show win0_2.index t (0 : Fin 2) * 10000 + 1 * j.val = j.val; omega
      | ⟨1, _⟩ => show win0_2.index t (1 : Fin 2) * 128 + 1 * k.val = k.val; omega
    · show V m c main_arg2 (((cfg0.win 3).blk t).view.emb _) = V m c main_arg2 _
      refine congrArg _ (funext fun a => Fin.ext ?_)
      match a with
      | ⟨0, _⟩ => show win0_3.index t (0 : Fin 2) * 128 + 1 * c'.val = c'.val; omega
      | ⟨1, _⟩ => show win0_3.index t (1 : Fin 2) * 256 + 1 * k.val = k.val; omega
    · show V m c main_arg2 (((cfg0.win 3).blk t).view.emb _) = V m c main_arg2 _
      refine congrArg _ (funext fun a => Fin.ext ?_)
      match a with
      | ⟨0, _⟩ => show win0_3.index t (0 : Fin 2) * 128 + 1 * c'.val = c'.val; omega
      | ⟨1, _⟩ => show win0_3.index t (1 : Fin 2) * 256 + 1 * (128 + k.val) = 128 + k.val; omega
    · show V m c main_v0 (((cfg0.win 4).blk t).view.emb _) = V m c main_v0 _
      refine congrArg _ (funext fun a => Fin.ext ?_)
      match a with
      | ⟨0, _⟩ => show win0_4.index t (0 : Fin 2) * 1 + 1 * 0 = 0; omega
      | ⟨1, _⟩ => show win0_4.index t (1 : Fin 2) * 128 + 1 * c'.val = c'.val; omega
  · have hp4 : p'.val < 400 := p'.isLt
    have hy : (ix2 p' q : S400x128.Idx) = ix2 ⟨200 + (⟨p'.val - 200, by omega⟩ : Fin 200).val, by omega⟩ q := by
      funext a; apply Fin.ext
      match a with
      | ⟨0, _⟩ => show p'.val = 200 + (p'.val - 200); omega
      | ⟨1, _⟩ => rfl
    rw [hy, outBlock_hi]
    refine rowval_congr (fun j => ?_) (fun k => ?_) (fun j k => ?_) (fun c' k => ?_) (fun c' k => ?_) (fun c' => ?_) q
    · show V m c main_arg1 (((cfg0.win 1).blk t).view.emb _) = V m c main_arg1 _
      refine congrArg _ (funext fun a => Fin.ext ?_)
      match a with
      | ⟨0, _⟩ => show win0_1.index t (0 : Fin 2) * 200 + 1 * (p'.val - 200) = 400 * t.val + p'.val; omega
      | ⟨1, _⟩ => show win0_1.index t (1 : Fin 2) * 10000 + 1 * j.val = j.val; omega
    · show V m c main_arg0 (((cfg0.win 2).blk t).view.emb _) = V m c main_arg0 _
      refine congrArg _ (funext fun a => Fin.ext ?_)
      match a with
      | ⟨0, _⟩ => show win0_2.index t (0 : Fin 2) * 10000 + 1 * (400 * (grid0.coords t 0).val + 200 + (p'.val - 200)) = 400 * t.val + p'.val; omega
      | ⟨1, _⟩ => show win0_2.index t (1 : Fin 2) * 128 + 1 * k.val = k.val; omega
    · show V m c main_arg0 (((cfg0.win 2).blk t).view.emb _) = V m c main_arg0 _
      refine congrArg _ (funext fun a => Fin.ext ?_)
      match a with
      | ⟨0, _⟩ => show win0_2.index t (0 : Fin 2) * 10000 + 1 * j.val = j.val; omega
      | ⟨1, _⟩ => show win0_2.index t (1 : Fin 2) * 128 + 1 * k.val = k.val; omega
    · show V m c main_arg2 (((cfg0.win 3).blk t).view.emb _) = V m c main_arg2 _
      refine congrArg _ (funext fun a => Fin.ext ?_)
      match a with
      | ⟨0, _⟩ => show win0_3.index t (0 : Fin 2) * 128 + 1 * c'.val = c'.val; omega
      | ⟨1, _⟩ => show win0_3.index t (1 : Fin 2) * 256 + 1 * k.val = k.val; omega
    · show V m c main_arg2 (((cfg0.win 3).blk t).view.emb _) = V m c main_arg2 _
      refine congrArg _ (funext fun a => Fin.ext ?_)
      match a with
      | ⟨0, _⟩ => show win0_3.index t (0 : Fin 2) * 128 + 1 * c'.val = c'.val; omega
      | ⟨1, _⟩ => show win0_3.index t (1 : Fin 2) * 256 + 1 * (128 + k.val) = 128 + k.val; omega
    · show V m c main_v0 (((cfg0.win 4).blk t).view.emb _) = V m c main_v0 _
      refine congrArg _ (funext fun a => Fin.ext ?_)
      match a with
      | ⟨0, _⟩ => show win0_4.index t (0 : Fin 2) * 1 + 1 * 0 = 0; omega
      | ⟨1, _⟩ => show win0_4.index t (1 : Fin 2) * 128 + 1 * c'.val = c'.val; omega

/-- An index of the result array is in point `t`'s block iff its row is among the block's 400 rows. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- Row `r` is written back by point `r / 400`: the 25 blocks of 400 rows tile the 10000 rows. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : (i 0).val / 400 < cfg0.N := by rw [show cfg0.N = 25 from N_0]; omega
  obtain ⟨ec, e00, e01, e10, e11, e20, e21, e30, e31, e40, e41, e50, e51⟩ := pt_facts ⟨(i 0).val / 400, hN⟩
  refine ⟨⟨(i 0).val / 400, hN⟩, flush0_5 _, ?_⟩
  rw [mem_blk]
  intro a
  match a with
  | ⟨0, _⟩ => show win0_5.index ⟨(i 0).val / 400, hN⟩ (0 : Fin 2) * 400 ≤ (i 0).val ∧ (i 0).val < win0_5.index ⟨(i 0).val / 400, hN⟩ (0 : Fin 2) * 400 + 400; simp only [] at e50; omega
  | ⟨1, _⟩ => show win0_5.index ⟨(i 0).val / 400, hN⟩ (1 : Fin 2) * 128 ≤ (i 1).val ∧ (i 1).val < win0_5.index ⟨(i 0).val / 400, hN⟩ (1 : Fin 2) * 128 + 128; omega

/-- The result array after the run, as one function of the region-entry arrays. -/
theorem final (c : Dev nD) : (dats (F := Ideal) m 0 c).arrAt 5 cfg0.N
    = Gv (V m c main_arg0) (V m c main_arg1) (V m c main_arg2) (V m c main_v0) :=
  (dats m 0 c).arrAt_eq_of_cover 5 _ (fun t _ => flushed_eq m c t) cover

/-- The bias row the region finds is the bias vector re-read as one row. -/
theorem V_main_v0 (c : Dev nD) : (V m c main_v0 : S1x128.Idx → EReal)
    = shapeCast S1x128 (m ((c : Thread nD τ).loc main_arg3)) shapeCasts_S128_S1x128 := by
  dsimp only [V, hostOps0]; after_results; rfl

/-- The layer's output as one function of the four argument arrays. -/
def Gout (a0 : (⟨S10000x128, .f32⟩ : BufTy).Contents (Elt Ideal)) (a1 : (⟨S10000x10000, .f32⟩ : BufTy).Contents (Elt Ideal))
    (a2 : (⟨S128x256, .f32⟩ : BufTy).Contents (Elt Ideal)) (a3 : (⟨S128, .f32⟩ : BufTy).Contents (Elt Ideal)) :
    (⟨S10000x128, .f32⟩ : BufTy).Contents (Elt Ideal) :=
  fun i => rowval (fun j => a1 (ix2 (i 0) j)) (fun k => a0 (ix2 (i 0) k)) (fun j k => a0 (ix2 j k))
    (fun c k => a2 (ix2 c ⟨k.val, by omega⟩)) (fun c k => a2 (ix2 c ⟨128 + k.val, by omega⟩)) (fun c => a3 (ix1 c)) (i 1)

/-- Over the region-entry arrays the block function is the layer's output of the launch arrays: the three matrices are
    as launched, and the bias row at column `c` is the bias vector at `c`. -/
theorem Gv_eq (c : Dev nD) : Gv (V m c main_arg0) (V m c main_arg1) (V m c main_arg2) (V m c main_v0)
    = Gout (m ((c : Thread nD τ).loc main_arg0)) (m ((c : Thread nD τ).loc main_arg1)) (m ((c : Thread nD τ).loc main_arg2)) (m ((c : Thread nD τ).loc main_arg3)) := by
  rw [V_main_arg0, V_main_arg1, V_main_arg2, V_main_v0]
  funext i
  unfold Gv Gout
  refine rowval_congr (fun _ => rfl) (fun _ => rfl) (fun _ _ => rfl) (fun _ _ => rfl) (fun _ _ => rfl) (fun c' => ?_) _
  refine (shapeCast_addUnit_apply ![128] _ _ _).trans (congrArg _ (funext fun a => ?_))
  match a with
  | ⟨0, _⟩ => rfl

/-- The kernel's run at the extended reals: the result array ends at the layer's output of the launch arrays, and the
    four arguments end as launched. -/
theorem kernel_run : θ_run (defs (F := Ideal)) (onTc (τ := τ) (main (F := Ideal))) ⟨m, fun _ => 0, ρ⟩ (fun r => ∀ c : Dev nD,
      r.2.mem ((c.tc : Thread nD τ).loc main_v1) = Gout (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans ((final m c).trans (Gv_eq m c)),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

/-- The reference's result is the same function of its arguments, element by element. -/
theorem ref_eq (x0 : (⟨Cert.ReferenceIdeal.S10000x128, .f32⟩ : BufTy).Contents (Elt Ideal)) (x1 : (⟨Cert.ReferenceIdeal.S10000x10000, .f32⟩ : BufTy).Contents (Elt Ideal))
    (x2 : (⟨Cert.ReferenceIdeal.S128x256, .f32⟩ : BufTy).Contents (Elt Ideal)) (x3 : (⟨Cert.ReferenceIdeal.S128, .f32⟩ : BufTy).Contents (Elt Ideal)) :
    Cert.ReferenceIdeal.Read.val_main_v14 (F := Ideal) x0 x1 x2 x3 = Gout x0 x1 x2 x3 := by
  funext i
  obtain ⟨r, q, rfl⟩ : ∃ (r : Fin 10000) (q : Fin 128), i = ix2 r q := ⟨i 0, i 1, eq_ix2 i⟩
  exact ref_at x0 x1 x2 x3 r q

end Cert.Sage

end
-- ==== Proof.lean ====
/-
  The certificate of a GraphSAGE layer kernel against its reference, over the extended reals.

  The kernel walks the 10000 rows of the dense adjacency matrix in 25 blocks of 400 rows, each block handed to the body
  as two 200-row halves through two windows on the one adjacency array; for each row it forms the neighbour aggregate,
  applies the two halves of the weight matrix to the row's own features and to the aggregate, adds the bias and divides
  the row by its Euclidean norm bounded below. The reference joins the features and the aggregate into one 256-vector
  per row, multiplies by the transposed weights in one contraction, and normalizes the same way.

  The three frames: the kernel's at both instances by the frame run for windows that share an array (the adjacency
  buffer's share split in two halves, one per window), the reference's by its run. The idealization rewrote nothing.
  The value claim: both programs end with the same function of the arguments — the contraction over 256 is the sum of
  its two halves, which needs only that addition of extended reals is associative and commutative.
-/
import proofs.«109985_g49082886258797_cont_8to1_c_363_15_alg».proof.Defs
import proofs.«109985_g49082886258797_cont_8to1_c_363_15_alg».proof.Proof.Gen.Kernel
import proofs.«109985_g49082886258797_cont_8to1_c_363_15_alg».proof.Proof.Gen.KernelIdeal
import proofs.«109985_g49082886258797_cont_8to1_c_363_15_alg».proof.Proof.Gen.ReferenceIdeal
import proofs.«109985_g49082886258797_cont_8to1_c_363_15_alg».proof.Proof.Gen.Pre_finite_inputs
import proofs.«109985_g49082886258797_cont_8to1_c_363_15_alg».proof.Proof.FrameBits
import proofs.«109985_g49082886258797_cont_8to1_c_363_15_alg».proof.Proof.ValueIdeal
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer's output of the arguments they agree on. -/
theorem algebraic : Cert.algebraic_KernelIdeal_ReferenceIdeal := by
  intro m ρ m' ρ' _ hagree
  refine ⟨_, Cert.Sage.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Sage.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
